-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S2048x2048 .f32) (main_arg2 : FVec F S2048x2048 .f32) (main_arg3 : FVec F S2048x2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S1x2048 : Shape := ⟨2, ![1, 2048]⟩
abbrev S256x2048 : Shape := ⟨2, ![256, 2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x2048_S512x1024_0_0 : ∀ a, (![0, 0] : Fin 2 → Nat) a + S512x1024.size a ≤ S512x2048.size a
  h_S512x1024 : 0 < S512x1024.numel
  bitsLt_bf16_f32 : FTy.bits .bf16 < FTy.bits .f32
  packedbf16_S512x2048_S512x1024_0_0 : (Rect.unit (s := S512x2048) ![0, 0] S512x1024.size inb_S512x2048_S512x1024_0_0).PackedRows (EltTy.packing .bf16)
  inb_S512x2048_S512x1024_0_1024 : ∀ a, (![0, 1024] : Fin 2 → Nat) a + S512x1024.size a ≤ S512x2048.size a
  packedbf16_S512x2048_S512x1024_0_1024 : (Rect.unit (s := S512x2048) ![0, 1024] S512x1024.size inb_S512x2048_S512x1024_0_1024).PackedRows (EltTy.packing .bf16)
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .f32 = 32 ∨ (Rect.block (s := S4096x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .f32 = 32 ∨ (Rect.block (s := S4096x2048) S256x2048.size (cc1_transform_3 i) (hinb1_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .i1⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.LayerSpec.lean ====
/-
  The layer both programs compute, on the extended reals.

  A linear layer whose weight matrix is sampled from a mean, a spread parameter and a noise matrix:
  `w(o, i) = mu(o, i) + softplus(rho(o, i)) · eps(o, i)`, and the output is
  `y(n, o) = Σ_i x(n, i) · w(o, i) + bias(o)` for `x : [4096, 2048]`, `mu, rho, eps : [2048, 2048]`, `bias : [2048]`.

  `softplus` is spelt as both programs spell it (the two-argument `logaddexp(x, 0)` with its test for an
  undefined difference): `if (x − 0) ≠ (x − 0) then x + 0 else max(x, 0) + log1p(exp(−|x − 0|))`. On the extended
  reals the test is never true; it is kept because both sides carry it, so no case split is needed.

  One side negates the absolute value, the other subtracts it from the zero constant: `0 − y = −y` on the extended
  reals (`softplus_sub_form`). One side tests "ordered and different", the other "unordered or different": one
  predicate here, where nothing is unordered.
-/
import Idealize.ShloMosaic.Lib.ValueIdx
import Idealize.ShloMosaic.PureOps.Ideal.Laws

noncomputable section

namespace Cert.SampledLinear

open Idealize.ShloMosaic Idealize.ShloMosaic.ValueIdx

/-- The binary32 zero word's value. -/
abbrev z32 : EReal := Ideal.ofBits .f32 0x00000000#32

/-- `softplus x = logaddexp(x, 0)`, with the test of its difference for being undefined, as printed. -/
def softplus (x : EReal) : EReal :=
  Scalar.select (Ideal.cmp .une (x - z32) (x - z32)) (x + z32)
    (max x z32 + Ideal.log1p (Ideal.exp (-(max (x - z32) (-(x - z32))))))

/-- The same function with the absolute value subtracted from the zero constant instead of negated, and the test
    spelt "ordered and different". -/
theorem softplus_sub_form (x : EReal) :
    Scalar.select (Ideal.cmp .one (x - z32) (x - z32)) (x + z32)
      (max x z32 + Ideal.log1p (Ideal.exp (z32 - (max (x - z32) (-(x - z32)))))) = softplus x := by
  unfold softplus
  rw [show z32 - max (x - z32) (-(x - z32)) = -(max (x - z32) (-(x - z32))) from by
    rw [show z32 = 0 from Ideal.ofBits_zero_f32, zero_sub]]
  rfl

/-- The sampled weight matrix `mu + softplus(rho) · eps`, entry by entry. -/
def weight {s : Shape} (mu rho eps : s.Idx → EReal) : s.Idx → EReal :=
  fun i => mu i + softplus (rho i) * eps i

/-- Entry `(p, q)` of the layer's output: row `p` of `x` against row `q` of the weight matrix, plus `bias q`. -/
def layerAt (x : (⟨2, ![4096, 2048]⟩ : Shape).Idx → EReal) (w : (⟨2, ![2048, 2048]⟩ : Shape).Idx → EReal)
    (bias : (⟨1, ![2048]⟩ : Shape).Idx → EReal) (p : Fin 4096) (q : Fin 2048) : EReal :=
  (∑ j : Fin 2048, x (ix2 p j) * w (ix2 q j)) + bias (ix1 q)

/-- The layer's output array. -/
def layer (x : (⟨2, ![4096, 2048]⟩ : Shape).Idx → EReal) (w : (⟨2, ![2048, 2048]⟩ : Shape).Idx → EReal)
    (bias : (⟨1, ![2048]⟩ : Shape).Idx → EReal) : (⟨2, ![4096, 2048]⟩ : Shape).Idx → EReal :=
  fun i => layerAt x w bias (i 0) (i 1)

theorem layer_apply (x : (⟨2, ![4096, 2048]⟩ : Shape).Idx → EReal) (w : (⟨2, ![2048, 2048]⟩ : Shape).Idx → EReal)
    (bias : (⟨1, ![2048]⟩ : Shape).Idx → EReal) (p : Fin 4096) (q : Fin 2048) :
    layer x w bias (ix2 p q) = layerAt x w bias p q := rfl

end Cert.SampledLinear

end
-- ==== Proof.RefLayer.lean ====
/-
  The reference program's result is the layer of `LayerSpec`.

  Its weight stage is `mu + softplus(rho) · eps` entry by entry (every operation of the outlined `softplus` is
  pointwise; its three zero arrays are the zero constant at every entry). Its product contracts the second axis of
  both operands, so entry `(p, q)` is the sum over `j` of `x(p, j) · w(q, j)`; the bias is laid as a `[1, 2048]` row
  and repeated down the rows, so entry `(p, q)` adds `bias q`.
-/
import proofs.«127012_j12876311953605_2_alg».proof.Proof.Gen.ReferenceIdeal.Read
import proofs.«127012_j12876311953605_2_alg».proof.Proof.LayerSpec

noncomputable section

namespace Cert.ReferenceIdeal.RefValue

open Cert.ReferenceIdeal Cert.ReferenceIdeal.Gen Cert.ReferenceIdeal.Read
open Idealize.ShloMosaic Idealize.ShloMosaic.ValueIdx Cert.SampledLinear

/-- The reference's weight stage is the sampled weight matrix. -/
theorem weight_stage (x1 x2 x3 : (⟨S2048x2048, .f32⟩ : BufTy).Contents (Elt Ideal)) :
    val_main_v2 (F := Ideal) x1 x2 x3 = weight x1 x2 x3 := by
  funext i
  simp only [val_main_v2_apply, val_main_v1_apply, val_main_v0_apply, val_main_call0_v4_apply,
    val_main_call0_v6_apply, val_main_call0_v11_apply, val_main_call0_v1_apply, val_main_call0_v10_apply,
    val_main_call0_v9_apply, val_main_call0_v8_apply, val_main_call0_v7_apply, val_main_call0_v3_apply,
    val_main_call0_v0_apply, val_main_call0_v2_apply, val_main_call0_v5_apply, val_main_call0_cst_apply]
  rfl

/-- The reference's result array is the layer's output. -/
theorem result_eq (x0 : (⟨S4096x2048, .f32⟩ : BufTy).Contents (Elt Ideal))
    (x1 x2 x3 : (⟨S2048x2048, .f32⟩ : BufTy).Contents (Elt Ideal)) (x4 : (⟨S2048, .f32⟩ : BufTy).Contents (Elt Ideal)) :
    val_main_v6 (F := Ideal) x0 x1 x2 x3 x4 = layer x0 (weight x1 x2 x3) x4 := by
  funext i
  obtain ⟨p, q, rfl⟩ : ∃ (p : Fin 4096) (q : Fin 2048), i = ix2 p q := ⟨i 0, i 1, eq_ix2 i⟩
  rw [layer_apply, val_main_v6_apply, val_main_v3_apply, val_main_v5_apply, val_main_v4_apply, weight_stage]
  have el : ∀ k : Fin 2048, lidx_main_v3 (ix2 p q) k = ix2 p k := fun k => funext fun a => Fin.ext (by
    match a with
    | ⟨0, _⟩ => rfl
    | ⟨1, _⟩ => rfl)
  have er : ∀ k : Fin 2048, ridx_main_v3 (ix2 p q) k = ix2 q k := fun k => funext fun a => Fin.ext (by
    match a with
    | ⟨0, _⟩ => rfl
    | ⟨1, _⟩ => rfl)
  have eb : idx_main_v4 (idx_main_v5 (ix2 p q)) = ix1 q := funext fun a => Fin.ext (by
    match a with
    | ⟨0, _⟩ => rfl)
  simp only [el, er, eb]
  rfl

end Cert.ReferenceIdeal.RefValue

end
-- ==== Proof.WeightRegion.lean ====
/-
  The first kernel call: the weight matrix it leaves.

  The call runs over four grid points. Point `t` reads rows `512·t … 512·t + 511` of `mu`, `rho` and `eps` (all
  2048 columns) and writes the same rows of its result, in two halves of 1024 columns each; both halves compute
  `mu + softplus(rho) · eps` entry by entry, so the block a point leaves is the block of ONE function of the three
  arrays, and since the four row blocks cover the array, the array the call leaves is `weight mu rho eps`.

  Stated at any contents `V` of the buffers when the call is entered.
-/
import proofs.«127012_j12876311953605_2_alg».proof.Proof.Gen.KernelIdeal.Frame
import proofs.«127012_j12876311953605_2_alg».proof.Proof.LayerSpec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Cert.SampledLinear
open Idealize.SL.Sem

variable (V : (c : Dev nD) → (b : Ref sig .tc) → Buf (Elt Ideal) ((c : Thread nD τ).loc b))

/-- The left half's stored value, entry by entry. -/
theorem left_half (v0 v1 v2 : Vec Ideal S512x1024 .f32) (y : S512x1024.Idx) :
    k0_pay2 v0 v1 v2 y = v0 y + softplus (v1 y) * v2 y := by
  show v0 y + (Scalar.select (Ideal.cmp .one (v1 y - z32) (v1 y - z32)) (v1 y + z32)
      (max (v1 y) z32 + Ideal.log1p (Ideal.exp (z32 - max (v1 y - z32) (-(v1 y - z32)))))) * v2 y = _
  rw [softplus_sub_form]

/-- The right half's stored value, entry by entry. -/
theorem right_half (v0 v1 v2 : Vec Ideal S512x1024 .f32) (y : S512x1024.Idx) :
    k0_pay1 (k0_pay3 v0 v1 v2) y = v0 y + softplus (v1 y) * v2 y := by
  show v0 y + (Scalar.select (Ideal.cmp .one (v1 y - z32) (v1 y - z32)) (v1 y + z32)
      (max (v1 y) z32 + Ideal.log1p (Ideal.exp (z32 - max (v1 y - z32) (-(v1 y - z32)))))) * v2 y = _
  rw [softplus_sub_form]

/-- The weight formula at two entries whose three inputs agree. -/
theorem weight_congr {s s' : Shape} (a b d : s.Idx → EReal) (a' b' d' : s'.Idx → EReal) (i : s.Idx) (i' : s'.Idx)
    (ha : a i = a' i') (hb : b i = b' i') (hd : d i = d' i') : weight a b d i = weight a' b' d' i' := by
  unfold weight; rw [ha, hb, hd]

/-- What the body leaves in the result's staging buffer: the weight formula of its three input blocks. -/
theorem body_block (x0 x1 x2 : Vec Ideal S512x2048 .f32) :
    out0_3 x0 x1 x2 = (weight x0 x1 x2 : S512x2048.Idx → EReal) := by
  funext y
  unfold out0_3
  refine View.canon_apply_of_pieces (Val := Elt Ideal) (e := .bf16) (weight x0 x1 x2 : S512x2048.Idx → EReal) _ ?_ y (cover0_3 _ _ y)
  intro pc hpc x
  rcases List.mem_cons.mp hpc with rfl | hpc
  · exact right_half (View.ld x0 r0_1) (View.ld x1 r0_1) (View.ld x2 r0_1) x
  · rcases List.mem_singleton.mp hpc with rfl
    exact left_half (View.ld x0 r0_0) (View.ld x1 r0_0) (View.ld x2 r0_0) x

/-- The four windows move together: at point `t` each is at row block `t`, column block `0`. -/
theorem blocks_aligned : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

/-- Every row block is some point's. -/
theorem row_block_onto : ∀ q0 : Fin 4, ∃ t : Fin cfg0.N, win0_3.index t = ![q0.val, 0] :=
  (by decide +kernel : ∀ q0 : Fin 4, ∃ t : Fin grid0.N, win0_3.index t = ![q0.val, 0])

/-- What point `t` writes back is block `t` of the weight matrix of the three arrays as the call finds them. -/
theorem written_back (c : Dev nD) (t : Fin cfg0.N) :
    (dat0 V c).flushed 3 t
      = ((cfg0.win 3).blk t).view.read (Elt Ideal) (weight (V c main_arg1) (V c main_arg2) (V c main_arg3)) := by
  show (cfg0.win 3).cut (grid0.coords t) ((dat0 V c).after 3 t) = _
  rw [after0_3]
  refine (congrArg ((cfg0.win 3).cut (grid0.coords t)) (body_block (iblk0 V c 0 t) (iblk0 V c 1 t) (iblk0 V c 2 t))).trans ?_
  obtain ⟨e0, e1, e2, e3, e4, e5⟩ := blocks_aligned t
  funext j
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * (j 1).val = win0_3.index t (1 : Fin 2) * 2048 + 1 * (j 1).val; omega
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 2048 + 1 * (j 1).val = win0_3.index t (1 : Fin 2) * 2048 + 1 * (j 1).val; omega
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 2048 + 1 * (j 1).val = win0_3.index t (1 : Fin 2) * 2048 + 1 * (j 1).val; omega
  exact weight_congr (iblk0 V c 0 t) (iblk0 V c 1 t) (iblk0 V c 2 t) (V c main_arg1) (V c main_arg2) (V c main_arg3)
    j (((cfg0.win 3).blk t).view.emb j) (congrArg (V c main_arg1) h0) (congrArg (V c main_arg2) h1)
    (congrArg (V c main_arg3) h2)

/-- An index of the result array is in point `t`'s block iff each coordinate is in the block's range. -/
theorem mem_row_block (t : Fin cfg0.N) (i : S2048x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- The four row blocks cover the result array: row `r` is in block `r / 512`. -/
theorem rows_covered (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := row_block_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_row_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the first call: the weight matrix of the three arrays as the call finds them. -/
theorem weight_array (c : Dev nD) :
    (dat0 V c).arrAt 3 cfg0.N = weight (V c main_arg1) (V c main_arg2) (V c main_arg3) :=
  (dat0 V c).arrAt_eq_of_cover 3 _ (fun t _ => written_back V c t) rows_covered

end Cert.KernelIdeal.Val

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.MatmulRegion.lean ====
/-
  The second kernel call: the product array it leaves.

  The call runs over sixteen grid points. Point `t` reads rows `256·t … 256·t + 255` of `x` (all 2048 columns), the
  WHOLE weight array and the whole `[1, 2048]` bias row, and writes rows `256·t …` of its result: the product of the
  row block with the transposed weight (both operands contracted along their second axis, into a zero accumulator)
  plus the bias row repeated down the rows. So entry `(r, q)` of what it writes is
  `Σ_j x(256·t + r, j) · w(q, j) + b(0, q)`: the block of ONE function of the three arrays, and the sixteen row blocks
  cover the result.

  Stated at any contents `V` of the buffers when the call is entered.
-/
import proofs.«127012_j12876311953605_2_alg».proof.Proof.Gen.KernelIdeal.Frame
import proofs.«127012_j12876311953605_2_alg».proof.Proof.LibRowOps
import proofs.«127012_j12876311953605_2_alg».proof.Proof.LibRowBroadcast
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- Entry `i = (r, q)` of "`x` times `w` transposed, plus the row `b`". -/
def rowLayer (x : (⟨2, ![4096, 2048]⟩ : Shape).Idx → EReal) (w : (⟨2, ![2048, 2048]⟩ : Shape).Idx → EReal)
    (b : (⟨2, ![1, 2048]⟩ : Shape).Idx → EReal) : (⟨2, ![4096, 2048]⟩ : Shape).Idx → EReal :=
  fun i => (∑ j : Fin 2048, x (ix2 (i 0) j) * w (ix2 (i 1) j)) + b (ix2 (0 : Fin 1) (i 1))

theorem rowLayer_apply (x : (⟨2, ![4096, 2048]⟩ : Shape).Idx → EReal) (w : (⟨2, ![2048, 2048]⟩ : Shape).Idx → EReal)
    (b : (⟨2, ![1, 2048]⟩ : Shape).Idx → EReal) (p : Fin 4096) (q : Fin 2048) :
    rowLayer x w b (ix2 p q) = (∑ j : Fin 2048, x (ix2 p j) * w (ix2 q j)) + b (ix2 (0 : Fin 1) q) := rfl

/-- The product's dimension record, under a short name. -/
abbrev prodDims : DotDims S256x2048 S2048x2048 S256x2048 := dot_S256x2048_S2048x2048_S256x2048_1_1_0_0_n_n

/-- The record's four operand-index facts: the left operand is read at (result row, contracted coordinate), the right
    at (result column, contracted coordinate). -/
theorem prod_l0 (i : S256x2048.Idx) (q : prodDims.contr.Idx) : (prodDims.lhsIdx i q 0).val = (i 0).val := by
  unfold DotDims.lhsIdx
  rw [dif_neg (show ¬(0 : Fin S256x2048.rank) ∈ prodDims.lhsBatch by decide),
    dif_pos (show (0 : Fin S256x2048.rank) ∈ prodDims.lhsNonContracting by decide)]
  rfl
theorem prod_l1 (i : S256x2048.Idx) (q : prodDims.contr.Idx) :
    (prodDims.lhsIdx i q 1).val = (q ⟨0, by decide⟩).val :=
  prodDims.lhsIdx_val_of_single rfl i q
theorem prod_r0 (i : S256x2048.Idx) (q : prodDims.contr.Idx) : (prodDims.rhsIdx i q 0).val = (i 1).val := by
  unfold DotDims.rhsIdx
  rw [dif_neg (show ¬(0 : Fin S2048x2048.rank) ∈ prodDims.rhsBatch by decide),
    dif_pos (show (0 : Fin S2048x2048.rank) ∈ prodDims.rhsNonContracting by decide)]
  rfl
theorem prod_r1 (i : S256x2048.Idx) (q : prodDims.contr.Idx) :
    (prodDims.rhsIdx i q 1).val = (q ⟨0, by decide⟩).val :=
  prodDims.rhsIdx_val_of_single rfl i q

/-- The body's stored value at entry `(p, q)` of its block. -/
theorem prod_block (x0 : FVec Ideal S256x2048 .f32) (x1 : FVec Ideal S2048x2048 .bf16) (x2 : FVec Ideal S1x2048 .f32)
    (p : Fin 256) (q : Fin 2048) :
    k1_pay1 x0 x1 x2 (ix2 p q) = (∑ j : Fin 2048, x0 (ix2 p j) * x1 (ix2 q j)) + x2 (ix2 (0 : Fin 1) q) := by
  have hm : matmul prodDims none (truncf .bf16 x0 bitsLt_bf16_f32)
      (shapeCast S2048x2048 x1 shapeCasts_S2048x2048_S2048x2048) (constant (F := Ideal) S256x2048 .f32 0x00000000#32) (ix2 p q)
      = ∑ j : Fin 2048, x0 (ix2 p j) * x1 (ix2 q j) := by
    rw [shapeCast_self]
    exact RowOps.matmulT_zero_apply prodDims none rfl rfl prod_l0 prod_l1 prod_r0 prod_r1
      (truncf .bf16 x0 bitsLt_bf16_f32) x1 p q
  have hb : broadcastTo S256x2048 (shapeCast S1x2048 x2 shapeCasts_S1x2048_S1x2048) broadcasts_S1x2048_S256x2048 (ix2 p q)
      = x2 (ix2 (0 : Fin 1) q) := by
    rw [shapeCast_self]
    exact RowBroadcast.broadcastTo_row_apply x2 broadcasts_S1x2048_S256x2048 p q
  exact congrArg₂ (· + ·) hm hb

theorem zeros2 : (![0, 0] : Fin 2 → Nat) = fun _ => 0 := funext fun a => by fin_cases a <;> rfl

/-- What the body leaves in the result's staging buffer: its one store's value of the three input blocks. -/
theorem body_block1 (x0 : Vec Ideal S256x2048 .f32) (x1 : Vec Ideal S2048x2048 .bf16) (x2 : Vec Ideal S1x2048 .f32) :
    out1_3 x0 x1 x2 = k1_pay1 x0 x1 x2 := by
  unfold out1_3
  rw [View.canon_unit_zero zeros2]
  simp only [View.ld_unit_zero (S := S256x2048) zeros2, View.ld_unit_zero (S := S2048x2048) zeros2,
    View.ld_unit_zero (S := S1x2048) zeros2]

/-- Where each window sits at point `t`: `x`'s and the result's at row block `t`, the weight's and the bias row's
    whole. -/
theorem blocks_placed : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 15 ∧ win1_3.index t (1 : Fin 2) = 0 :=
  (by decide +kernel : ∀ t : Fin grid1.N, _)

/-- Every row block is some point's. -/
theorem row_block_onto1 : ∀ q0 : Fin 16, ∃ t : Fin cfg1.N, win1_3.index t = ![q0.val, 0] :=
  (by decide +kernel : ∀ q0 : Fin 16, ∃ t : Fin grid1.N, win1_3.index t = ![q0.val, 0])

/-- What point `t` writes back is block `t` of `rowLayer` of the three arrays as the call finds them. -/
theorem written_back1 (c : Dev nD) (t : Fin cfg1.N) :
    (dat1 V c).flushed 3 t
      = ((cfg1.win 3).blk t).view.read (Elt Ideal) (rowLayer (V c main_arg0) (V c main_v0) (V c main_v1)) := by
  show (cfg1.win 3).cut (grid1.coords t) ((dat1 V c).after 3 t) = _
  rw [after1_3]
  refine (congrArg ((cfg1.win 3).cut (grid1.coords t)) (body_block1 (iblk1 V c 0 t) (iblk1 V c 1 t) (iblk1 V c 2 t))).trans ?_
  obtain ⟨e0, e1, e2, e3, e4, e5, e6, e7⟩ := blocks_placed t
  funext j
  obtain ⟨p, q, rfl⟩ : ∃ (p : Fin 256) (q : Fin 2048), j = ix2 p q := ⟨j 0, j 1, eq_ix2 j⟩
  refine (prod_block (iblk1 V c 0 t) (iblk1 V c 1 t) (iblk1 V c 2 t) p q).trans ?_
  have hP : win1_3.index t (0 : Fin 2) * 256 + 1 * p.val < 4096 := by have := p.isLt; omega
  have h3 : ((cfg1.win 3).blk t).view.emb (ix2 p q) = ix2 (⟨_, hP⟩ : Fin 4096) q := by
    funext a; apply Fin.ext
    match a with
    | ⟨0, _⟩ => rfl
    | ⟨1, _⟩ => show win1_3.index t (1 : Fin 2) * 2048 + 1 * q.val = q.val; omega
  have h0 : ∀ k : Fin 2048, ((cfg1.win 0).blk t).view.emb (ix2 p k) = ix2 (⟨_, hP⟩ : Fin 4096) k := fun k => by
    funext a; apply Fin.ext
    match a with
    | ⟨0, _⟩ => show win1_0.index t (0 : Fin 2) * 256 + 1 * p.val = win1_3.index t (0 : Fin 2) * 256 + 1 * p.val; omega
    | ⟨1, _⟩ => show win1_0.index t (1 : Fin 2) * 2048 + 1 * k.val = k.val; omega
  have h1 : ∀ k : Fin 2048, ((cfg1.win 1).blk t).view.emb (ix2 q k) = ix2 q k := fun k => by
    funext a; apply Fin.ext
    match a with
    | ⟨0, _⟩ => show win1_1.index t (0 : Fin 2) * 2048 + 1 * q.val = q.val; omega
    | ⟨1, _⟩ => show win1_1.index t (1 : Fin 2) * 2048 + 1 * k.val = k.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 2048 + 1 * q.val = q.val; omega
  refine Eq.trans ?_ (congrArg (rowLayer (V c main_arg0) (V c main_v0) (V c main_v1)) h3.symm)
  rw [rowLayer_apply]
  refine congrArg₂ (· + ·) (Finset.sum_congr rfl fun k _ => ?_) ?_
  · exact congrArg₂ (· * ·) (congrArg (V c main_arg0) (h0 k)) (congrArg (V c main_v0) (h1 k))
  · exact congrArg (V c main_v1) h2

/-- An index of the result array is in point `t`'s block iff each coordinate is in the block's range. -/
theorem mem_row_block1 (t : Fin cfg1.N) (i : S4096x2048.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v2).slice (win1_3.rect t)).set ↔ _
  rw [View.set_slice_whole, Rect.mem_set_unit]
  exact Iff.rfl

/-- The sixteen row blocks cover the result array: row `r` is in block `r / 256`. -/
theorem rows_covered1 (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨t, ht⟩ := row_block_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_row_block1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- The result array after the second call: `rowLayer` of the three arrays as the call finds them. -/
theorem prod_array (c : Dev nD) :
    (dat1 V c).arrAt 3 cfg1.N = rowLayer (V c main_arg0) (V c main_v0) (V c main_v1) :=
  (dat1 V c).arrAt_eq_of_cover 3 _ (fun t _ => written_back1 V c t) rows_covered1

end Cert.KernelIdeal.Val

end
-- ==== Proof.KernelRun.lean ====
/-
  The kernel program's run with its result named, and the result's value.

  The program is: the first call (it leaves the weight matrix), one host reshape of the bias to a `[1, 2048]` row, the
  second call (it leaves "`x` times the weight transposed, plus the row"). The buffer contents at each boundary are the
  generated frame's (`W1`, `W2`, `W3`); here they are read where the second call and the result need them:

  * when the second call is entered, `x` is as launched (nothing wrote it), the weight buffer holds
    `weight mu rho eps` (the first call's result, untouched by the reshape), and the row buffer holds the bias
    reshaped;
  * so the result buffer ends at `layer x (weight mu rho eps) bias`: entry `(0, q)` of a `[2048]` vector reshaped to
    `[1, 2048]` is its entry `q`.

  The run itself is the launch theorem for a program of several kernel calls applied to the generated segments, with
  the result buffer's final contents kept in the postcondition beside the arguments'.
-/
import proofs.«127012_j12876311953605_2_alg».proof.Proof.Gen.KernelIdeal.Frame
import proofs.«127012_j12876311953605_2_alg».proof.Proof.WeightRegion
import proofs.«127012_j12876311953605_2_alg».proof.Proof.MatmulRegion
import proofs.«127012_j12876311953605_2_alg».proof.Proof.LayerSpec
import proofs.«127012_j12876311953605_2_alg».proof.Proof.LibRowBroadcast
import Idealize.ShloMosaic.Lib.StableHlo.Run

set_option maxRecDepth 16384

noncomputable section

namespace Cert.KernelIdeal.Val

open Cert.KernelIdeal Cert.KernelIdeal.Gen Cert.SampledLinear
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-! ## The second call's entry contents -/

/-- `x` is as launched. -/
theorem entry_x (c : Dev nD) : V2 m ρ c main_arg0 = m ((c : Thread nD τ).loc main_arg0) := by
  show StableHlo.after hostOps1 (W1 m ρ c) (Proc.devRef .tc main_arg0) = _
  after_results
  exact (W1_of_ne m ρ c main_arg0 (by decide)).trans rfl

/-- The weight buffer holds the sampled weight matrix of the launch contents. -/
theorem entry_w (c : Dev nD) :
    V2 m ρ c main_v0 = weight (m ((c : Thread nD τ).loc main_arg1)) (m ((c : Thread nD τ).loc main_arg2))
      (m ((c : Thread nD τ).loc main_arg3)) := by
  show StableHlo.after hostOps1 (W1 m ρ c) (Proc.devRef .tc main_v0) = _
  after_results
  refine (W1_arr m ρ c 3).trans ?_
  exact weight_array (V0 m ρ) c

/-- The row buffer holds the bias reshaped to `[1, 2048]`. -/
theorem entry_row (c : Dev nD) :
    V2 m ρ c main_v1 = shapeCast S1x2048 (m ((c : Thread nD τ).loc main_arg4)) shapeCasts_S2048_S1x2048 := by
  show StableHlo.after hostOps1 (W1 m ρ c) (Proc.devRef .tc main_v1) = _
  after_results
  rw [W1_of_ne m ρ c main_arg4 (by decide)]
  rfl

/-! ## The result -/

/-- The result buffer's final contents are the layer's output of the launch contents. -/
theorem result_value (c : Dev nD) :
    W3 m ρ c (Proc.devRef .tc main_v2)
      = layer (m ((c : Thread nD τ).loc main_arg0))
          (weight (m ((c : Thread nD τ).loc main_arg1)) (m ((c : Thread nD τ).loc main_arg2)) (m ((c : Thread nD τ).loc main_arg3)))
          (m ((c : Thread nD τ).loc main_arg4)) := by
  refine (W3_arr m ρ c 3).trans ?_
  refine (prod_array (V2 m ρ) c).trans ?_
  rw [entry_x, entry_w, entry_row]
  funext i
  obtain ⟨p, q, rfl⟩ : ∃ (p : Fin 4096) (q : Fin 2048), i = ix2 p q := ⟨i 0, i 1, eq_ix2 i⟩
  rw [rowLayer_apply, layer_apply]
  unfold layerAt
  rw [RowBroadcast.shapeCast_flat_apply]

/-! ## The run -/

set_option backward.isDefEq.respectTransparency.types false in
/-- Every weakly fair execution of the kernel program terminates, nothing faulting, with the result buffer at the
    last boundary's contents and the argument arrays as launched. -/
theorem run_named : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The kernel program's run with the result at the layer's output of the launch contents. -/
theorem run_layer : θ_run defs (onTc (τ := τ) (main (F := Ideal))) ⟨m, fun _ => 0, ρ⟩ (fun r => ∀ c : Dev nD,
      r.2.mem ((c.tc : Thread nD τ).loc main_v2)
        = layer (m ((c.tc : Thread nD τ).loc main_arg0))
            (weight (m ((c.tc : Thread nD τ).loc main_arg1)) (m ((c.tc : Thread nD τ).loc main_arg2)) (m ((c.tc : Thread nD τ).loc main_arg3)))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_named m ρ)

end Cert.KernelIdeal.Val

end
-- ==== Proof.lean ====
/-
  The proof of `Cert.Claim`: a linear layer with a sampled weight matrix, computed by two kernel calls, against its
  one-line reference.

  Both programs compute, on the extended reals,
  `y(n, o) = Σ_i x(n, i) · (mu(o, i) + softplus(rho(o, i)) · eps(o, i)) + bias(o)`
  (`LayerSpec`: `layer x (weight mu rho eps) bias`).

  * The kernel program first builds the weight matrix in four row blocks (`WeightRegion`), reshapes the bias to a
    `[1, 2048]` row on the host, then multiplies sixteen row blocks of `x` by the transposed weight and adds the row
    (`MatmulRegion`); `KernelRun` reads the buffer contents between the three steps and names the result.
    The change of float format between the two calls is the identity on the extended reals.
  * The reference computes the same weight entry by entry, contracts the second axis of both operands and adds the
    bias repeated down the rows (`RefLayer`, over the reference's run read one operation at a time).

  The two sides are the same expression entry by entry — the same sum in the same order, the same `softplus`
  spelling up to `0 − y = −y` —, so no law that needs finite inputs is used and the precondition is never opened.
  The three frames are the generated ones (the reference's is its run with the result dropped); the idealization
  rewrote nothing, so its conjunct is `True`.
-/
import proofs.«127012_j12876311953605_2_alg».proof.Defs
import proofs.«127012_j12876311953605_2_alg».proof.Proof.Gen.Kernel
import proofs.«127012_j12876311953605_2_alg».proof.Proof.Gen.Kernel.Frame
import proofs.«127012_j12876311953605_2_alg».proof.Proof.Gen.KernelIdeal
import proofs.«127012_j12876311953605_2_alg».proof.Proof.Gen.KernelIdeal.Frame
import proofs.«127012_j12876311953605_2_alg».proof.Proof.Gen.ReferenceIdeal
import proofs.«127012_j12876311953605_2_alg».proof.Proof.Gen.Pre_finite_inputs
import proofs.«127012_j12876311953605_2_alg».proof.Proof.Gen.ReferenceIdeal.Run
import proofs.«127012_j12876311953605_2_alg».proof.Proof.Gen.ReferenceIdeal.Read
import proofs.«127012_j12876311953605_2_alg».proof.Proof.LayerSpec
import proofs.«127012_j12876311953605_2_alg».proof.Proof.RefLayer
import proofs.«127012_j12876311953605_2_alg».proof.Proof.KernelRun

noncomputable section

namespace Cert.Proof

open Idealize.ShloMosaic Idealize.ShloMosaic.TcCoe Idealize.SL.Sem Cert.SampledLinear

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the layer's output of those arguments. -/
theorem algebraic : Cert.algebraic_KernelIdeal_ReferenceIdeal := by
  intro m ρ m' ρ' _ hagree
  refine ⟨_, Cert.KernelIdeal.Val.run_layer m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v6_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
